-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn_part1 {F : FTy → Type} [FloatOps F] (main_v13 : IVec S_ 1) (main_v15 : IVec S16384 1) (main_c_5 : IVec S_ 1) : IVec S_ 1 :=
  let main_v16 : IVec S_ 1 := (fun x v => Host.reduce IntOp.andi x v reducesTo_S16384_S_d0 h_S_) main_v15 main_c_5
  let main_v17 : IVec S_ 1 := andi main_v13 main_v16
  main_v17

def fn {F : FTy → Type} [FloatOps F] (main_arg0 : FVec F S4x2048x4096 .f32) (main_arg1 : IVec S16384x4096 32) (main_arg2 : FVec F S16384 .f32) (main_arg3 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  let main_cst_4 : FVec F S_ .f32 := constant S_ .f32 0x00000000#32
  let main_v14 : FVec F S16384 .f32 := broadcastInDim S16384 ![] bcast_S_S16384 main_cst_4
  let main_v15 : IVec S16384 1 := cmpf .une main_arg2 main_v14
  let main_c_5 : IVec S_ 1 := constantI S_ 1 1#1
  fn_part1 (F := F) main_v13 main_v15 main_c_5
-- ==== Kernel.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S_ : Shape := ⟨0, ![]⟩
abbrev S1x16384 : Shape := ⟨2, ![1, 16384]⟩
abbrev S8192x16384 : Shape := ⟨2, ![8192, 16384]⟩
abbrev S512x4096 : Shape := ⟨2, ![512, 4096]⟩
abbrev S1x512 : Shape := ⟨2, ![1, 512]⟩
abbrev S512x512 : Shape := ⟨2, ![512, 512]⟩
abbrev S4x2048x16384 : Shape := ⟨3, ![4, 2048, 16384]⟩

abbrev nBuf : Space → Nat
  | .hbm => 13
  | .vmem => 10
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S8192x4096, .f32⟩
  | .hbm, ⟨5, _⟩ => ⟨S16384x4096, .bf16⟩
  | .hbm, ⟨6, _⟩ => ⟨S_, .f32⟩
  | .hbm, ⟨7, _⟩ => ⟨S16384, .f32⟩
  | .hbm, ⟨8, _⟩ => ⟨S16384, .f32⟩
  | .hbm, ⟨9, _⟩ => ⟨S1x16384, .f32⟩
  | .hbm, ⟨10, _⟩ => ⟨S1x16384, .f32⟩
  | .hbm, ⟨11, _⟩ => ⟨S8192x16384, .f32⟩
  | .hbm, ⟨12, _⟩ => ⟨S4x2048x16384, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  bcast_S_S16384 : S_.BroadcastsInDim S16384 (![] : Fin 0 → Fin S16384.rank)
  shapeCasts_S16384_S1x16384 : S16384.ShapeCasts S1x16384
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  shapeCasts_S8192x16384_S4x2048x16384 : S8192x16384.ShapeCasts S4x2048x16384
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S8192x16384.size a
  hwx0_4 : ∀ i : grid0.Coords, EltTy.bits .f32 = 32 ∨ (Rect.block (s := S8192x16384) S512x512.size (cc0_transform_4 i) (hinb0_4 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S512x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S8192x4096 : Shape := ⟨2, ![8192, 4096]⟩
abbrev S8192x16384 : Shape := ⟨2, ![8192, 16384]⟩
abbrev S1x16384 : Shape := ⟨2, ![1, 16384]⟩
abbrev S4x2048x16384 : Shape := ⟨3, ![4, 2048, 16384]⟩

abbrev nBuf : Space → Nat
  | .hbm => 14
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S8192x4096, .f32⟩
  | .hbm, ⟨6, _⟩ => ⟨S8192x16384, .f32⟩
  | .hbm, ⟨7, _⟩ => ⟨S1x16384, .f32⟩
  | .hbm, ⟨8, _⟩ => ⟨S8192x16384, .f32⟩
  | .hbm, ⟨9, _⟩ => ⟨S8192x16384, .f32⟩
  | .hbm, ⟨10, _⟩ => ⟨S1x16384, .f32⟩
  | .hbm, ⟨11, _⟩ => ⟨S8192x16384, .f32⟩
  | .hbm, ⟨12, _⟩ => ⟨S8192x16384, .f32⟩
  | .hbm, ⟨13, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S4x2048x4096_S8192x4096 : S4x2048x4096.ShapeCasts S8192x4096
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  shapeCasts_S8192x16384_S4x2048x16384 : S8192x16384.ShapeCasts S4x2048x16384
  dot_S8192x4096_S16384x4096_S8192x16384_1_1_0_0_n_n_wf : DotDims.WF S8192x4096 S16384x4096 S8192x16384 [1] [1] [0] [0] [] []

variable [Facts₀]

def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.BlockValue.lean ====
/-
  One block of the kernel's product, element by element.

  At a grid point the body loads a block `x0` of 512 rows of the activations (512 × 4096), a block `x1` of 512 rows of
  the weights (512 × 4096, the contraction on the SECOND axis of both), and the matching 512 entries of the reciprocal
  scales `x2` and of the bias `x3` (each 1 × 512). It stores, at row `p` and column `q` of the 512 × 512 output block,

      (∑ k, x0[p, k] · x1[q, k]) · x2[0, q] + x3[0, q].

  On the extended reals the narrowing of `x0` to bf16 is the identity, the matrix unit's product into a zero accumulator
  is the plain sum, and the two row broadcasts read row 0.
-/
import proofs.«176013_j17927193493750_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-- The block product's dimension record: both operands 512 × 4096, contracted on axis 1 of each. -/
abbrev dotBlk : DotDims S512x4096 S512x4096 S512x512 := dot_S512x4096_S512x4096_S512x512_1_1_0_0_n_n

/-- Row coordinate of the left operand's index under the contraction: the output's row. -/
theorem lhs0 (j : S512x512.Idx) (q : dotBlk.contr.Idx) : (dotBlk.lhsIdx j q 0).val = (j 0).val := by
  unfold DotDims.lhsIdx
  rw [dif_neg (show ¬(0 : Fin S512x4096.rank) ∈ dotBlk.lhsBatch by decide),
    dif_pos (show (0 : Fin S512x4096.rank) ∈ dotBlk.lhsNonContracting by decide)]
  rfl

/-- Its column coordinate: the contraction's. -/
theorem lhs1 (j : S512x512.Idx) (q : dotBlk.contr.Idx) : (dotBlk.lhsIdx j q 1).val = (q ⟨0, by decide⟩).val :=
  dotBlk.lhsIdx_val_of_single rfl j q

/-- Row coordinate of the right operand's index: the output's COLUMN (the weights are contracted on their second axis). -/
theorem rhs0 (j : S512x512.Idx) (q : dotBlk.contr.Idx) : (dotBlk.rhsIdx j q 0).val = (j 1).val := by
  unfold DotDims.rhsIdx
  rw [dif_neg (show ¬(0 : Fin S512x4096.rank) ∈ dotBlk.rhsBatch by decide),
    dif_pos (show (0 : Fin S512x4096.rank) ∈ dotBlk.rhsNonContracting by decide)]
  rfl

theorem rhs1 (j : S512x512.Idx) (q : dotBlk.contr.Idx) : (dotBlk.rhsIdx j q 1).val = (q ⟨0, by decide⟩).val :=
  dotBlk.rhsIdx_val_of_single rfl j q

/-- The block product into a zero accumulator, at row `p` and column `q`: the sum over the 4096 contracted positions. -/
theorem matmul_at (a : FVec Ideal S512x4096 .bf16) (b : FVec Ideal S512x4096 .bf16) (p q : Fin 512) :
    matmul (F := Ideal) dotBlk none a b (constant (F := Ideal) S512x512 .f32 0x00000000#32) (ix2 p q)
      = ∑ k : Fin 4096, a (ix2 p k) * b (ix2 q k) := by
  refine (Ideal.matmul_constant_zero_apply dotBlk none a b (ix2 p q)).trans ?_
  rw [← Equiv.sum_comp (contrEquiv1 dotBlk 4096 rfl rfl).symm]
  refine Finset.sum_congr rfl fun k _ => ?_
  have hk := contrEquiv1_symm_val dotBlk 4096 rfl rfl k
  have el : dotBlk.lhsIdx (ix2 p q) ((contrEquiv1 dotBlk 4096 rfl rfl).symm k) = ix2 p k := funext fun ax => Fin.ext (by
    match ax with
    | ⟨0, _⟩ => exact lhs0 _ _
    | ⟨1, _⟩ => exact (lhs1 _ _).trans hk)
  have er : dotBlk.rhsIdx (ix2 p q) ((contrEquiv1 dotBlk 4096 rfl rfl).symm k) = ix2 q k := funext fun ax => Fin.ext (by
    match ax with
    | ⟨0, _⟩ => exact rhs0 _ _
    | ⟨1, _⟩ => exact (rhs1 _ _).trans hk)
  rw [el, er]

/-- THE BLOCK'S ELEMENT: product, times the reciprocal scale of the column, plus the column's bias. -/
theorem pay_apply (x0 : Vec Ideal S512x4096 .f32) (x1 : Vec Ideal S512x4096 .bf16) (x2 x3 : Vec Ideal S1x512 .f32)
    (p q : Fin 512) :
    k0_pay1 (F := Ideal) x0 x1 x2 x3 (ix2 p q)
      = (∑ k : Fin 4096, x0 (ix2 p k) * x1 (ix2 q k)) * x2 (ix2 (0 : Fin 1) q) + x3 (ix2 (0 : Fin 1) q) := by
  unfold k0_pay1
  simp only [shapeCast_self]
  refine (addf_apply _ _ _).trans ?_
  refine congrArg₂ (· + ·) ((mulf_apply _ _ _).trans (congrArg₂ (· * ·) ?_ ?_)) ?_
  · exact matmul_at _ _ p q
  · exact broadcastTo_1b_ab_apply x2 broadcasts_S1x512_S512x512 p q
  · exact broadcastTo_1b_ab_apply x3 broadcasts_S1x512_S512x512 p q

end Cert.KernelIdeal.BlockValue

end
-- ==== Proof.KernelArray.lean ====
/-
  The kernel's result array, as one function of the arrays the region is launched on.

  The grid has 16 × 32 points; point `t` = (i, j) = (t / 32, t % 32) loads rows [512 i, 512 i + 512) of the activations
  `X` (8192 × 4096), rows [512 j, 512 j + 512) of the weights `W` (16384 × 4096), columns [512 j, 512 j + 512) of the
  reciprocal scales and of the bias (each 1 × 16384), and writes back block (i, j) of the 8192 × 16384 output. By
  `BlockValue.pay_apply` the element at row `P`, column `Q` of the output is therefore

      arr X W inv bias (P, Q) = (∑ k, X[P, k] · W[Q, k]) · inv[0, Q] + bias[0, Q],

  the same function of the whole arrays at every point; the 512 blocks tile the output, so after the region the output
  array IS `arr`. The host lines before the region give `X`, `W`, `inv`, `bias` from the arguments (a reshape, an
  integer-to-float conversion, the reciprocal `1 / scales` reshaped to a row, the bias reshaped to a row), and the one
  host line after it reshapes the output to 4 × 2048 × 16384.
-/
import proofs.«176013_j17927193493750_2_alg».proof.Proof.Gen.KernelIdeal.Frame
import proofs.«176013_j17927193493750_2_alg».proof.Proof.BlockValue
import Idealize.ShloMosaic.Lib.Pipeline.Value
import Idealize.ShloMosaic.Lib.ValueIdx
import Idealize.ShloMosaic.Lib.StableHlo.Run

set_option maxRecDepth 16384

noncomputable section

namespace Cert.KernelIdeal.ArrayValue

open Cert.KernelIdeal Cert.KernelIdeal.Gen
open Idealize.ShloMosaic Idealize.ShloMosaic.TcCoe Idealize.ShloMosaic.ValueIdx Idealize.SL.Sem
open Idealize.ShloMosaic.Pipeline (Dat)

/-- The output array as a function of the launched arrays: product, times the column's reciprocal scale, plus its bias. -/
def arr (X : FVec Ideal S8192x4096 .f32) (W : FVec Ideal S16384x4096 .bf16) (inv bias : FVec Ideal S1x16384 .f32) :
    FVec Ideal S8192x16384 .f32 :=
  fun J => (∑ k : Fin 4096, X (ix2 (J 0) k) * W (ix2 (J 1) k)) * inv (ix2 (0 : Fin 1) (J 1)) + bias (ix2 (0 : Fin 1) (J 1))

/-- A block's element is the array function's, once each loaded block is known to be the matching part of its array:
    local row `y 0` is array row `J 0`, local column `y 1` is array column `J 1`. -/
theorem block_elem (X : FVec Ideal S8192x4096 .f32) (W : FVec Ideal S16384x4096 .bf16) (inv bias : FVec Ideal S1x16384 .f32)
    (x0 : Vec Ideal S512x4096 .f32) (x1 : Vec Ideal S512x4096 .bf16) (x2 x3 : Vec Ideal S1x512 .f32)
    (y : S512x512.Idx) (J : S8192x16384.Idx)
    (h0 : ∀ k : Fin 4096, x0 (ix2 (y 0) k) = X (ix2 (J 0) k))
    (h1 : ∀ k : Fin 4096, x1 (ix2 (y 1) k) = W (ix2 (J 1) k))
    (h2 : x2 (ix2 (0 : Fin 1) (y 1)) = inv (ix2 (0 : Fin 1) (J 1)))
    (h3 : x3 (ix2 (0 : Fin 1) (y 1)) = bias (ix2 (0 : Fin 1) (J 1))) :
    k0_pay1 (F := Ideal) x0 x1 x2 x3 y = arr X W inv bias J := by
  refine ((congrArg (k0_pay1 (F := Ideal) x0 x1 x2 x3) (eq_ix2 y)).trans
    (BlockValue.pay_apply x0 x1 x2 x3 (y 0) (y 1))).trans ?_
  unfold arr
  exact congrArg₂ (· + ·)
    (congrArg₂ (· * ·) (Finset.sum_congr rfl fun k _ => congrArg₂ (· * ·) (h0 k) (h1 k)) h2) h3

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided once over the 512 points: the activations move with the output's block row, the
    weights, reciprocal scales and bias with its block column; the output's block is (t / 32, t % 32). -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) = t.val / 32 ∧ win0_4.index t (1 : Fin 2) = t.val % 32 :=
  (by decide +kernel : ∀ t : Fin grid0.N, _)

/-- WHAT POINT `t` WRITES BACK is block `t` of `arr` of the arrays as the region finds them. -/
theorem flushed_eq (c : Dev nD) (t : Fin cfg0.N) :
    (dats (F := Ideal) m 0 c).flushed 4 t
      = ((cfg0.win 4).blk t).view.read (Elt Ideal) (arr (V m c main_v0) (V m c main_v1) (V m c main_v4) (V m c main_v5)) := by
  show (cfg0.win 4).cut (grid0.coords t) ((dats m 0 c).after 4 t) = _
  rw [after0_4]
  unfold out0_4
  rw [View.canon_unit_zero hz]
  simp only [View.ld_unit_zero (S := S512x4096) hz, View.ld_unit_zero (S := S1x512) hz]
  obtain ⟨e00, e01, e10, e11, e20, e21, e30, e31, -, -⟩ := idx_facts t
  funext y
  refine block_elem (V m c main_v0) (V m c main_v1) (V m c main_v4) (V m c main_v5)
    (iblk m c 0 t) (iblk m c 1 t) (iblk m c 2 t) (iblk m c 3 t) y (((cfg0.win 4).blk t).view.emb y) ?_ ?_ ?_ ?_
  · intro k
    show V m c main_v0 (((cfg0.win 0).blk t).view.emb (ix2 (y 0) k)) = V m c main_v0 (ix2 ((((cfg0.win 4).blk t).view.emb y) 0) k)
    refine congrArg (V m c main_v0) (funext fun a => Fin.ext ?_)
    match a with
    | ⟨0, _⟩ => show win0_0.index t (0 : Fin 2) * 512 + 1 * (y 0).val = win0_4.index t (0 : Fin 2) * 512 + 1 * (y 0).val; rw [e00]
    | ⟨1, _⟩ => show win0_0.index t (1 : Fin 2) * 4096 + 1 * k.val = k.val; rw [e01]; omega
  · intro k
    show V m c main_v1 (((cfg0.win 1).blk t).view.emb (ix2 (y 1) k)) = V m c main_v1 (ix2 ((((cfg0.win 4).blk t).view.emb y) 1) k)
    refine congrArg (V m c main_v1) (funext fun a => Fin.ext ?_)
    match a with
    | ⟨0, _⟩ => show win0_1.index t (0 : Fin 2) * 512 + 1 * (y 1).val = win0_4.index t (1 : Fin 2) * 512 + 1 * (y 1).val; rw [e10]
    | ⟨1, _⟩ => show win0_1.index t (1 : Fin 2) * 4096 + 1 * k.val = k.val; rw [e11]; omega
  · show V m c main_v4 (((cfg0.win 2).blk t).view.emb (ix2 (0 : Fin 1) (y 1))) = V m c main_v4 (ix2 (0 : Fin 1) ((((cfg0.win 4).blk t).view.emb y) 1))
    refine congrArg (V m c main_v4) (funext fun a => Fin.ext ?_)
    match a with
    | ⟨0, _⟩ => show win0_2.index t (0 : Fin 2) * 1 + 1 * 0 = 0; rw [e20]
    | ⟨1, _⟩ => show win0_2.index t (1 : Fin 2) * 512 + 1 * (y 1).val = win0_4.index t (1 : Fin 2) * 512 + 1 * (y 1).val; rw [e21]
  · show V m c main_v5 (((cfg0.win 3).blk t).view.emb (ix2 (0 : Fin 1) (y 1))) = V m c main_v5 (ix2 (0 : Fin 1) ((((cfg0.win 4).blk t).view.emb y) 1))
    refine congrArg (V m c main_v5) (funext fun a => Fin.ext ?_)
    match a with
    | ⟨0, _⟩ => show win0_3.index t (0 : Fin 2) * 1 + 1 * 0 = 0; rw [e30]
    | ⟨1, _⟩ => show win0_3.index t (1 : Fin 2) * 512 + 1 * (y 1).val = win0_4.index t (1 : Fin 2) * 512 + 1 * (y 1).val; rw [e31]

/-- An index of the output array is in point `t`'s block iff each coordinate is in the block's range on its axis. -/
theorem mem_blk (t : Fin cfg0.N) (i : S8192x16384.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v6).slice (win0_4.rect t)).set ↔ _
  rw [View.set_slice_whole, Rect.mem_set_unit]
  exact Iff.rfl

/-- THE BLOCKS TILE THE OUTPUT: row `R`, column `Q` lies in the block of the point (R / 512, Q / 512). -/
theorem cover (i : S8192x16384.Idx) :
    ∃ t : Fin cfg0.N, (cfg0.win 4).flush t = true ∧ i ∈ ((cfg0.win 4).blk t).view.set := by
  have hN : grid0.N = 512 := N_0
  have hi0 : (i 0).val < 8192 := (i 0).isLt
  have hi1 : (i 1).val < 16384 := (i 1).isLt
  have ht : (i 0).val / 512 * 32 + (i 1).val / 512 < grid0.N := by omega
  obtain ⟨-, -, -, -, -, -, -, -, e40, e41⟩ := idx_facts ⟨(i 0).val / 512 * 32 + (i 1).val / 512, ht⟩
  have q0 : win0_4.index ⟨(i 0).val / 512 * 32 + (i 1).val / 512, ht⟩ (0 : Fin 2) = (i 0).val / 512 := by
    rw [e40]; show ((i 0).val / 512 * 32 + (i 1).val / 512) / 32 = _; omega
  have q1 : win0_4.index ⟨(i 0).val / 512 * 32 + (i 1).val / 512, ht⟩ (1 : Fin 2) = (i 1).val / 512 := by
    rw [e41]; show ((i 0).val / 512 * 32 + (i 1).val / 512) % 32 = _; omega
  refine ⟨⟨(i 0).val / 512 * 32 + (i 1).val / 512, ht⟩, flush0_4 _, ?_⟩
  rw [mem_blk]
  intro a
  match a with
  | ⟨0, _⟩ =>
    show win0_4.index _ (0 : Fin 2) * 512 ≤ (i 0).val ∧ (i 0).val < win0_4.index _ (0 : Fin 2) * 512 + 512
    rw [q0]; omega
  | ⟨1, _⟩ =>
    show win0_4.index _ (1 : Fin 2) * 512 ≤ (i 1).val ∧ (i 1).val < win0_4.index _ (1 : Fin 2) * 512 + 512
    rw [q1]; omega

/-- THE OUTPUT ARRAY after the region: `arr` of the arrays the region is launched on. -/
theorem final (c : Dev nD) :
    (dats (F := Ideal) m 0 c).arrAt 4 cfg0.N = arr (V m c main_v0) (V m c main_v1) (V m c main_v4) (V m c main_v5) :=
  (dats m 0 c).arrAt_eq_of_cover 4 _ (fun t _ => flushed_eq m c t) cover

end Cert.KernelIdeal.ArrayValue

end
-- ==== Proof.KernelRun.lean ====
/-
  The kernel's run, with its result named as a function of the ARGUMENTS.

  Before the region the host reshapes the activations 4 × 2048 × 4096 → 8192 × 4096, converts the integer weights to
  floats, forms the reciprocal `1 / scales` and reshapes it and the bias to rows 1 × 16384; these are the arrays the
  region's windows stage. After the region one host line reshapes the 8192 × 16384 output to 4 × 2048 × 16384. So every
  weakly fair execution ends with the result at

      reshape (arr (reshape x) (float W_q) (row (1 / scales)) (row bias))

  and the arguments unchanged.
-/
import proofs.«176013_j17927193493750_2_alg».proof.Proof.KernelArray
import Idealize.ShloMosaic.Lib.StableHlo.Run

set_option maxRecDepth 16384

noncomputable section

namespace Cert.KernelIdeal.RunValue

open Cert.KernelIdeal Cert.KernelIdeal.Gen Cert.KernelIdeal.ArrayValue
open Idealize.ShloMosaic Idealize.ShloMosaic.TcCoe Idealize.ShloMosaic.ValueIdx Idealize.SL.Sem Idealize.ShloMosaic.StableHlo
open Idealize.ShloMosaic.Pipeline (Dat)

/-- The reciprocal scales as the host forms them: the constant one, broadcast, divided by `scales`, as a row. -/
def invRow (s : FVec Ideal S16384 .f32) : FVec Ideal S1x16384 .f32 :=
  shapeCast S1x16384 (Host.divf (F := Ideal) (broadcastInDim S16384 ![] bcast_S_S16384 (constant (F := Ideal) S_ .f32 0x3F800000#32)) s)
    shapeCasts_S16384_S1x16384

/-- The kernel's result from its four arguments. -/
def result (x : FVec Ideal S4x2048x4096 .f32) (w : IVec S16384x4096 32) (s b : FVec Ideal S16384 .f32) :
    FVec Ideal S4x2048x16384 .f32 :=
  shapeCast S4x2048x16384
    (arr (shapeCast S8192x4096 x shapeCasts_S4x2048x4096_S8192x4096) (sitofp (F := Ideal) .bf16 w) (invRow s)
      (shapeCast S1x16384 b shapeCasts_S16384_S1x16384))
    shapeCasts_S8192x16384_S4x2048x16384

variable (m : (ℓ : Loc nD τ sig) → Buf (Elt Ideal) ℓ) (ρ : Dev nD → PrngReg)

/-! ## The host lines before the region -/

theorem V_v0 (c : Dev nD) :
    V m c main_v0 = shapeCast S8192x4096 (m ((c : Thread nD τ).loc main_arg0)) shapeCasts_S4x2048x4096_S8192x4096 := by
  show StableHlo.after hostOps0 (fun b => m (c, b)) (Proc.devRef .tc main_v0) = _
  after_results <;> rfl

theorem V_v1 (c : Dev nD) :
    V m c main_v1 = sitofp (F := Ideal) .bf16 (m ((c : Thread nD τ).loc main_arg1)) := by
  show StableHlo.after hostOps0 (fun b => m (c, b)) (Proc.devRef .tc main_v1) = _
  after_results <;> rfl

theorem V_v4 (c : Dev nD) : V m c main_v4 = invRow (m ((c : Thread nD τ).loc main_arg2)) := by
  show StableHlo.after hostOps0 (fun b => m (c, b)) (Proc.devRef .tc main_v4) = _
  after_results <;> rfl

theorem V_v5 (c : Dev nD) :
    V m c main_v5 = shapeCast S1x16384 (m ((c : Thread nD τ).loc main_arg3)) shapeCasts_S16384_S1x16384 := by
  show StableHlo.after hostOps0 (fun b => m (c, b)) (Proc.devRef .tc main_v5) = _
  after_results <;> rfl

/-! ## The host line after the region -/

/-- The result buffer after the tail: the region's output array, reshaped. -/
theorem tail_v7 (c : Dev nD) :
    Pipeline.afterTail₀ cfgs (dats (F := Ideal) m) 0 (V0 m) [hostOps1] c main_v7
      = result (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v7) = _
  after_results
  unfold result
  refine congrArg (fun z => shapeCast S4x2048x16384 z shapeCasts_S8192x16384_S4x2048x16384) ?_
  refine (Pipeline.withArrays_arr spec0 launch0.win.arr_inj c _ _ 4).trans ?_
  rw [final m c, V_v0, V_v1, V_v4, V_v5]

/-! ## The run -/

/-- Every weakly fair execution of the kernel's @main terminates with the result at `result` of the arguments and the
    arguments unchanged. -/
theorem run : θ_run defs (onTc (τ := τ) (main (F := Ideal))) ⟨m, fun _ => 0, ρ⟩ fun r => ∀ c : Dev nD,
      r.2.mem ((c.tc : Thread nD τ).loc main_v7)
        = result (m ((c : Thread nD τ).loc main_arg0)) (m ((c : Thread nD τ).loc main_arg1))
            (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v7 (Pipeline.mem_restRefs_of main_v7 (by decide) (by decide))).trans (tail_v7 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.RunValue

end
-- ==== Proof.Bridge.lean ====
/-
  The two programs compute one function, where no scale is zero.

  Element (P, Q) of the 8192 × 16384 array before the final reshape:

      kernel     (∑ k, X[P, k] · W[Q, k]) · (1 / s[Q]) + b[Q]          (the reciprocal formed once on the host)
      reference  (∑ k, X[P, k] · W[Q, k]) / s[Q] + b[Q]

  with X the activations reshaped to 8192 × 4096 and W the integer weights read as reals (the kernel converts them to
  bf16, the reference to f32: on the extended reals both are the integer itself). For a divisor `s ≠ 0` the quotient
  `a / s` IS the product `a · s⁻¹` and `1 / s` is `s⁻¹`, for every extended real `a`; so the two agree, with no
  finiteness needed of the sum. At `s = 0` they do not: `0 · (1 / 0) = 0 · ⊤ = 0` while `0 / 0 = ⊥` — the reason the
  claim is stated where the reference's own division is defined.
-/
import proofs.«176013_j17927193493750_2_alg».proof.Proof.KernelRun
import proofs.«176013_j17927193493750_2_alg».proof.Proof.Gen.ReferenceIdeal.Read
import Idealize.ShloMosaic.Lib.ValueLayout
import Idealize.ShloMosaic.Lib.IdealHost

noncomputable section

namespace Cert.Bridge

open Idealize.ShloMosaic Idealize.ShloMosaic.ValueIdx

/-- The reference's 8192 × 16384 stage at an index: the contraction, divided by the column's scale, plus its bias. -/
theorem ref_apply (x0 : FVec Ideal Cert.ReferenceIdeal.S4x2048x4096 .f32) (x1 : IVec Cert.ReferenceIdeal.S16384x4096 32)
    (x2 x3 : FVec Ideal Cert.ReferenceIdeal.S16384 .f32) (J : Cert.ReferenceIdeal.S8192x16384.Idx) :
    Cert.ReferenceIdeal.Read.val_main_v8 (F := Ideal) x0 x1 x2 x3 J
      = Ideal.div (∑ k : Fin 4096, Cert.ReferenceIdeal.Read.val_main_v1 (F := Ideal) x0 (ix2 (J 0) k)
            * Cert.ReferenceIdeal.Read.val_main_v0 (F := Ideal) x1 (ix2 (J 1) k)) (x2 (ix1 (J 1)))
          + x3 (ix1 (J 1)) := by
  have el : ∀ k : Fin 4096, Cert.ReferenceIdeal.Read.lidx_main_v2 J k = ix2 (J 0) k := fun k =>
    funext fun a => Fin.ext (by match a with | ⟨0, _⟩ => rfl | ⟨1, _⟩ => rfl)
  have er : ∀ k : Fin 4096, Cert.ReferenceIdeal.Read.ridx_main_v2 J k = ix2 (J 1) k := fun k =>
    funext fun a => Fin.ext (by match a with | ⟨0, _⟩ => rfl | ⟨1, _⟩ => rfl)
  have es : Cert.ReferenceIdeal.Read.idx_main_v3 (Cert.ReferenceIdeal.Read.idx_main_v4 J) = ix1 (J 1) :=
    funext fun a => Fin.ext (by match a with | ⟨0, _⟩ => rfl)
  have eb : Cert.ReferenceIdeal.Read.idx_main_v6 (Cert.ReferenceIdeal.Read.idx_main_v7 J) = ix1 (J 1) :=
    funext fun a => Fin.ext (by match a with | ⟨0, _⟩ => rfl)
  rw [Cert.ReferenceIdeal.Read.val_main_v8_apply, Cert.ReferenceIdeal.Read.val_main_v5_apply,
    Cert.ReferenceIdeal.Read.val_main_v2_apply, Cert.ReferenceIdeal.Read.val_main_v4_apply,
    Cert.ReferenceIdeal.Read.val_main_v3_apply, Cert.ReferenceIdeal.Read.val_main_v7_apply,
    Cert.ReferenceIdeal.Read.val_main_v6_apply, es, eb]
  simp only [el, er]
  rfl

/-- The reciprocal row at column `Q`: one over the scale. -/
theorem invRow_apply (s : FVec Ideal Cert.KernelIdeal.S16384 .f32) (Q : Fin 16384) :
    Cert.KernelIdeal.RunValue.invRow s (ix2 (0 : Fin 1) Q) = Ideal.div 1 (s (ix1 Q)) := by
  unfold Cert.KernelIdeal.RunValue.invRow
  refine (shapeCast_a_1a_apply _ _ (0 : Fin 1) Q).trans ?_
  refine (hostDivf_apply _ _ _).trans ?_
  refine congrArg (fun z => Ideal.div z (s (ix1 Q))) ?_
  refine (broadcastInDim_scalar_apply _ _ _).trans ?_
  exact Ideal.ofBits_one_f32

/-- THE TWO ARRAYS AGREE before the final reshape, where no scale is zero. -/
theorem arr_eq_ref (x : FVec Ideal Cert.KernelIdeal.S4x2048x4096 .f32) (w : IVec Cert.KernelIdeal.S16384x4096 32)
    (s b : FVec Ideal Cert.KernelIdeal.S16384 .f32) (hs : ∀ n : Fin 16384, s (ix1 n) ≠ 0) :
    Cert.KernelIdeal.ArrayValue.arr
        (shapeCast Cert.KernelIdeal.S8192x4096 x Cert.KernelIdeal.Gen.shapeCasts_S4x2048x4096_S8192x4096)
        (sitofp (F := Ideal) .bf16 w) (Cert.KernelIdeal.RunValue.invRow s)
        (shapeCast Cert.KernelIdeal.S1x16384 b Cert.KernelIdeal.Gen.shapeCasts_S16384_S1x16384)
      = Cert.ReferenceIdeal.Read.val_main_v8 (F := Ideal) x w s b := by
  funext J
  refine Eq.trans ?_ (ref_apply x w s b J).symm
  unfold Cert.KernelIdeal.ArrayValue.arr
  have hinv : Cert.KernelIdeal.RunValue.invRow s (ix2 (0 : Fin 1) (J 1)) = Ideal.div 1 (s (ix1 (J 1))) :=
    invRow_apply s (J 1)
  have hb : shapeCast Cert.KernelIdeal.S1x16384 b Cert.KernelIdeal.Gen.shapeCasts_S16384_S1x16384 (ix2 (0 : Fin 1) (J 1))
      = b (ix1 (J 1)) := shapeCast_a_1a_apply _ _ (0 : Fin 1) (J 1)
  refine (congrArg₂ (· + ·) (congrArg₂ (· * ·) rfl hinv) hb).trans ?_
  refine congrArg (· + b (ix1 (J 1))) ?_
  exact Ideal.mul_one_div (hs (J 1))

/-- So do the results: both programs end with the same reshape of that array. -/
theorem result_eq (x : FVec Ideal Cert.KernelIdeal.S4x2048x4096 .f32) (w : IVec Cert.KernelIdeal.S16384x4096 32)
    (s b : FVec Ideal Cert.KernelIdeal.S16384 .f32) (hs : ∀ n : Fin 16384, s (ix1 n) ≠ 0) :
    Cert.KernelIdeal.RunValue.result x w s b = Cert.ReferenceIdeal.Read.val_main_v9 (F := Ideal) x w s b := by
  unfold Cert.KernelIdeal.RunValue.result Cert.ReferenceIdeal.Read.val_main_v9
  rw [arr_eq_ref x w s b hs]

end Cert.Bridge

end
-- ==== Proof.ScalesNonzero.lean ====
/-
  What the precondition says of the scales: none is zero.

  The precondition is one bit: the conjunction of "every activation is finite", "every scale is finite", "every bias is
  finite" and "every scale differs from zero", each an `all` over its array. From the bit being one, the last conjunct
  gives, at every column `n`, that the comparison `scales[n] ≠ 0` answered one, which on the extended reals is the
  proposition itself. This is what makes the reference's quotient by `scales[n]` an ordinary division.
-/
import proofs.«176013_j17927193493750_2_alg».proof.Pre_finite_inputs
import Idealize.ShloMosaic.PureOps.Ideal
import Idealize.ShloMosaic.Lib.ReduceAll
import Idealize.ShloMosaic.Lib.ValueIdx
import Idealize.ShloMosaic.Lib.IdealHost

noncomputable section

namespace Cert.Domain

open Cert.Pre_finite_inputs Idealize.ShloMosaic Idealize.ShloMosaic.ValueIdx

instance : Subsingleton S_.Idx := ⟨fun a b => funext fun d => d.elim0⟩

/-- A one-bit word made from a decision is one exactly when the decision is true. -/
theorem ofBool_eq_one (b : Bool) : BitVec.ofBool b = 1#1 ↔ b = true := by cases b <;> decide

/-- The precondition's last conjunct, element by element. -/
theorem scales_ne_zero [Facts] (x : FVec Ideal S4x2048x4096 .f32) (w : IVec S16384x4096 32)
    (s b : FVec Ideal S16384 .f32) (h : fn (F := Ideal) x w s b = fun _ => 1#1) (n : Fin 16384) :
    s (ix1 n) ≠ 0 := by
  have h0 := congrFun h ix0
  dsimp only [fn, fn_part1] at h0
  have h1 := (IntOp.andi_eq_one.mp h0).2
  have h2 := Host.reduce_andi_all _ _ _ _ _ h1 (ix1 n)
  rw [cmpf_apply, broadcastInDim_scalar_apply, constant_apply, Ideal.ofBits_zero_f32] at h2
  have h3 : Ideal.cmp .une (s (ix1 n)) 0 = 1#1 := h2
  unfold Ideal.cmp at h3
  exact of_decide_eq_true ((ofBool_eq_one _).mp h3)

end Cert.Domain

end
-- ==== Proof.lean ====
/-
  The proof of `Cert.Claim`: a dequantizing matmul kernel against its jnp reference, on the extended reals.

  Kernel:     out[t, n] = (∑ k, x[t, k] · W_q[n, k]) · (1 / scales[n]) + bias[n]    (reciprocal formed once on the host,
              bf16 operands on the matrix unit, 512 × 512 output blocks over a 16 × 32 grid)
  Reference:  out[t, n] = (∑ k, x[t, k] · W_q[n, k]) / scales[n] + bias[n]

  On the extended reals a change of float format is the identity and the blocked product is the plain sum, so the two
  differ only in "times the reciprocal" against "divided by". For `scales[n] ≠ 0` both are the product with
  `scales[n]⁻¹`, whatever the sum is. The precondition states `scales[n] ≠ 0` for every `n` — the domain on which the
  reference's own division is defined; at a zero scale with a zero sum the two would differ (`0 · ⊤ = 0`, `0 / 0 = ⊥`).

  The three frames: the kernel's two (as printed, and idealized) are the generated frame certificates; the reference's
  is its generated run with the result dropped. Nothing was rewritten by the idealization, so `preserves` is trivial.
  The algebraic claim: the kernel's run ends at `RunValue.result` of the arguments (Proof/KernelRun.lean, over
  Proof/KernelArray.lean and Proof/BlockValue.lean), the reference's at its generated term, and the two are equal by
  Proof/Bridge.lean under the precondition's last conjunct (Proof/ScalesNonzero.lean).
-/
import proofs.«176013_j17927193493750_2_alg».proof.Defs
import proofs.«176013_j17927193493750_2_alg».proof.Proof.Gen.Kernel
import proofs.«176013_j17927193493750_2_alg».proof.Proof.Gen.Kernel.Skeleton
import proofs.«176013_j17927193493750_2_alg».proof.Proof.Gen.Kernel.Launch
import proofs.«176013_j17927193493750_2_alg».proof.Proof.Gen.Kernel.Points
import proofs.«176013_j17927193493750_2_alg».proof.Proof.Gen.Kernel.Frame
import proofs.«176013_j17927193493750_2_alg».proof.Proof.Gen.KernelIdeal
import proofs.«176013_j17927193493750_2_alg».proof.Proof.Gen.KernelIdeal.Skeleton
import proofs.«176013_j17927193493750_2_alg».proof.Proof.Gen.KernelIdeal.Launch
import proofs.«176013_j17927193493750_2_alg».proof.Proof.Gen.KernelIdeal.Points
import proofs.«176013_j17927193493750_2_alg».proof.Proof.Gen.KernelIdeal.Frame
import proofs.«176013_j17927193493750_2_alg».proof.Proof.Gen.ReferenceIdeal
import proofs.«176013_j17927193493750_2_alg».proof.Proof.Gen.ReferenceIdeal.Run
import proofs.«176013_j17927193493750_2_alg».proof.Proof.Gen.ReferenceIdeal.Read
import proofs.«176013_j17927193493750_2_alg».proof.Proof.Gen.Pre_finite_inputs
import proofs.«176013_j17927193493750_2_alg».proof.Proof.KernelRun
import proofs.«176013_j17927193493750_2_alg».proof.Proof.Bridge
import proofs.«176013_j17927193493750_2_alg».proof.Proof.ScalesNonzero
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel ends at `result` of its arguments, the reference at its own term of arguments that
    agree with them; the two are one array because no scale is zero. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, (hagree c).1, (hagree c).2.1, (hagree c).2.2.1, (hagree c).2.2.2]
  exact (Cert.Bridge.result_eq _ _ _ _ (fun n => Cert.Domain.scales_ne_zero _ _ _ _ (hpre c) n)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
